-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x16 : Shape := ⟨2, ![64, 16]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S64x1024x64 .f32) (main_arg1 : FVec F S64x16 .f32) (main_arg2 : FVec F S64x16 .f32) (main_arg3 : FVec F S64x16 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S64x1024x64 : Shape := ⟨3, ![64, 1024, 64]⟩
abbrev S64x16 : Shape := ⟨2, ![64, 16]⟩
abbrev S64x1024x16 : Shape := ⟨3, ![64, 1024, 16]⟩
abbrev S1x1024x64 : Shape := ⟨3, ![1, 1024, 64]⟩
abbrev S1x1024x16 : Shape := ⟨3, ![1, 1024, 16]⟩
abbrev S1024x64 : Shape := ⟨2, ![1024, 64]⟩
abbrev S1024x16 : Shape := ⟨2, ![1024, 16]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S64x1024x64, .f32⟩
  | .hbm, ⟨1, _⟩ => ⟨S64x16, .f32⟩
  | .hbm, ⟨2, _⟩ => ⟨S64x16, .f32⟩
  | .hbm, ⟨3, _⟩ => ⟨S64x16, .f32⟩
  | .hbm, ⟨4, _⟩ => ⟨S64x1024x16, .f32⟩
  | .local _ .vmem, ⟨0, _⟩ => ⟨S1x1024x64, .f32⟩
  | .local _ .vmem, ⟨1, _⟩ => ⟨S1x1024x64, .f32⟩
  | .local _ .vmem, ⟨2, _⟩ => ⟨S64x16, .f32⟩
  | .local _ .vmem, ⟨3, _⟩ => ⟨S64x16, .f32⟩
  | .local _ .vmem, ⟨4, _⟩ => ⟨S64x16, .f32⟩
  | .local _ .vmem, ⟨5, _⟩ => ⟨S1x1024x16, .f32⟩
  | .local _ .vmem, ⟨6, _⟩ => ⟨S1x1024x16, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  reduces_S1024x1024_S1024 : S1024x1024.Reduces [1] S1024
  shapeCasts_S1024_S1024x1 : S1024.ShapeCasts S1024x1
  broadcasts_S1024x1_S1024x1024 : S1024x1.Broadcasts S1024x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S1024x16_S1x1024x16 : S1024x16.ShapeCasts S1x1024x16
  dot_S1024x64_S64x16_S1024x16_1_0_0_1_n_n_wf : DotDims.WF S1024x64 S64x16 S1024x16 [1] [0] [0] [1] [] []
  dot_S1024x16_S1024x16_S1024x1024_1_1_0_0_n_n_wf : DotDims.WF S1024x16 S1024x16 S1024x1024 [1] [1] [0] [0] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x1024x64.size a
  hwx0_0 : ∀ i : grid0.Coords, EltTy.bits .f32 = 32 ∨ (Rect.block (s := S64x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x16.size a ≤ S64x1024x16.size a
  hwx0_4 : ∀ i : grid0.Coords, EltTy.bits .f32 = 32 ∨ (Rect.block (s := S64x1024x16) S1x1024x16.size (cc0_transform_4 i) (hinb0_4 i)).WholeWords (EltTy.packing .f32)

variable [Facts₀]

def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x16 : Shape := ⟨2, ![64, 16]⟩
abbrev S64x1024x16 : Shape := ⟨3, ![64, 1024, 16]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x16, .f32⟩
  | .hbm, ⟨2, _⟩ => ⟨S64x16, .f32⟩
  | .hbm, ⟨3, _⟩ => ⟨S64x16, .f32⟩
  | .hbm, ⟨4, _⟩ => ⟨S64x1024x16, .f32⟩
  | .hbm, ⟨5, _⟩ => ⟨S64x1024x16, .f32⟩
  | .hbm, ⟨6, _⟩ => ⟨S64x1024x16, .f32⟩
  | .hbm, ⟨7, _⟩ => ⟨S64x1024x1024, .f32⟩
  | .hbm, ⟨8, _⟩ => ⟨S_, .f32⟩
  | .hbm, ⟨9, _⟩ => ⟨S64x1024x1024, .f32⟩
  | .hbm, ⟨10, _⟩ => ⟨S64x1024x1024, .f32⟩
  | .hbm, ⟨11, _⟩ => ⟨S_, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x1024x1, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S_, .f32⟩
  | .hbm, ⟨21, _⟩ => ⟨S64x1024, .f32⟩
  | .hbm, ⟨22, _⟩ => ⟨S64x1024x1, .f32⟩
  | .hbm, ⟨23, _⟩ => ⟨S64x1024x1024, .f32⟩
  | .hbm, ⟨24, _⟩ => ⟨S64x1024x1024, .f32⟩
  | .hbm, ⟨25, _⟩ => ⟨S64x1024x16, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x16_S64x1024x16_2_0_01_1_n_n_wf : DotDims.WF S64x1024x64 S64x16 S64x1024x16 [2] [0] [0, 1] [1] [] []
  dot_S64x1024x16_S64x1024x16_S64x1024x1024_2_2_1_1_0_0_wf : DotDims.WF S64x1024x16 S64x1024x16 S64x1024x1024 [2] [2] [1] [1] [0] [0]
  dot_S64x1024x1024_S64x1024x16_S64x1024x16_2_1_1_2_0_0_wf : DotDims.WF S64x1024x1024 S64x1024x16 S64x1024x16 [2] [1] [1] [2] [0] [0]

variable [Facts₀]

def dot_S64x1024x64_S64x16_S64x1024x16_2_0_01_1_n_n : DotDims S64x1024x64 S64x16 S64x1024x16 where
  lhsContracting := [2]
  rhsContracting := [0]
  lhsNonContracting := [0, 1]
  rhsNonContracting := [1]
  lhsBatch := []
  rhsBatch := []
  wf := dot_S64x1024x64_S64x16_S64x1024x16_2_0_01_1_n_n_wf
def dot_S64x1024x16_S64x1024x16_S64x1024x1024_2_2_1_1_0_0 : DotDims S64x1024x16 S64x1024x16 S64x1024x1024 where
  lhsContracting := [2]
  rhsContracting := [2]
  lhsNonContracting := [1]
  rhsNonContracting := [1]
  lhsBatch := [0]
  rhsBatch := [0]
  wf := dot_S64x1024x16_S64x1024x16_S64x1024x1024_2_2_1_1_0_0_wf
def dot_S64x1024x1024_S64x1024x16_S64x1024x16_2_1_1_2_0_0 : DotDims S64x1024x1024 S64x1024x16 S64x1024x16 where
  lhsContracting := [2]
  rhsContracting := [1]
  lhsNonContracting := [1]
  rhsNonContracting := [2]
  lhsBatch := [0]
  rhsBatch := [0]
  wf := dot_S64x1024x1024_S64x1024x16_S64x1024x16_2_1_1_2_0_0_wf

class Facts : Prop extends Facts₀ where

variable [Facts]
-- ==== Proof.Attention.lean ====
/-
  One attention head, as a function on the extended reals.

  A slab `x` of 1024 rows of 64 numbers is projected by three 64 × 16 matrices to queries, keys and values
  (`proj`). The score of query row `i` against key row `j` is the inner product of the two projected rows,
  scaled by the float word `0x3E000000` (one eighth) (`score`). Each row of scores is turned into weights
  by subtracting the row's maximum (taken from `-∞`, the word `0xFF800000`), exponentiating, and dividing
  by the row's sum (`rowMax`, `weight`, `softmax`). Output row `i` is the weights' combination of the
  value rows (`mix`). `head` composes them; `attention` applies `head` to each of the 64 slabs of a
  [64, 1024, 64] array.

  Nothing here depends on an order of summation, a tiling, or a float format: the sums are `Finset` sums
  over the coordinate ranges, the maximum a `Finset.fold` of `max`, and the two float words are kept as
  words, so that two programs that use the same words never need their values.
-/
import Idealize.ShloMosaic.PureOps.Ideal
import Idealize.ShloMosaic.Lib.ValueIdx

noncomputable section

namespace Cert.Attention

open Idealize.ShloMosaic Idealize.ShloMosaic.ValueIdx

/-- Row `s` of the slab times column `h` of the matrix: `∑ c, x s c · w c h`. -/
def proj (x : Fin 1024 → Fin 64 → EReal) (w : Fin 64 → Fin 16 → EReal) (s : Fin 1024) (h : Fin 16) : EReal :=
  ∑ c : Fin 64, x s c * w c h

/-- The scaled inner product of query row `i` and key row `j`. -/
def score (q k : Fin 1024 → Fin 16 → EReal) (i j : Fin 1024) : EReal :=
  (∑ h : Fin 16, q i h * k j h) * Ideal.ofBits .f32 0x3E000000#32

/-- The maximum of row `i`, folded from `-∞` and then once more compared with `-∞`, as both programs do. -/
def rowMax (w : Fin 1024 → Fin 1024 → EReal) (i : Fin 1024) : EReal :=
  max (Ideal.ofBits .f32 0xFF800000#32)
    ((Finset.univ : Finset (Fin 1024)).fold max (Ideal.ofBits .f32 0xFF800000#32) (fun j => w i j))

/-- The unnormalised weight: `exp (w i j − max of row i)`. -/
def weight (w : Fin 1024 → Fin 1024 → EReal) (i j : Fin 1024) : EReal :=
  Ideal.exp (w i j - rowMax w i)

/-- The weight divided by its row's sum. -/
def softmax (w : Fin 1024 → Fin 1024 → EReal) (i j : Fin 1024) : EReal :=
  Ideal.div (weight w i j) (∑ l : Fin 1024, weight w i l)

/-- Row `i` of the weights applied to column `h` of the values: `∑ j, p i j · v j h`. -/
def mix (p : Fin 1024 → Fin 1024 → EReal) (v : Fin 1024 → Fin 16 → EReal) (i : Fin 1024) (h : Fin 16) : EReal :=
  ∑ j : Fin 1024, p i j * v j h

/-- One head on one slab. -/
def head (x : Fin 1024 → Fin 64 → EReal) (wq wk wv : Fin 64 → Fin 16 → EReal) : Fin 1024 → Fin 16 → EReal :=
  mix (softmax (score (proj x wq) (proj x wk))) (proj x wv)

/-- The head applied to slab `b` of a [64, 1024, 64] array, with the three matrices read off [64, 16] arrays. -/
def attention (X : (⟨3, ![64, 1024, 64]⟩ : Shape).Idx → EReal) (Wq Wk Wv : (⟨2, ![64, 16]⟩ : Shape).Idx → EReal)
    (b : Fin 64) (s : Fin 1024) (h : Fin 16) : EReal :=
  head (fun r c => X (ix3 b r c)) (fun c e => Wq (ix2 c e)) (fun c e => Wk (ix2 c e)) (fun c e => Wv (ix2 c e)) s h

/-- The [64, 1024, 16] result array: entry (b, s, h) is head `b`'s output at (s, h). -/
def output (X : (⟨3, ![64, 1024, 64]⟩ : Shape).Idx → EReal) (Wq Wk Wv : (⟨2, ![64, 16]⟩ : Shape).Idx → EReal) :
    (⟨3, ![64, 1024, 16]⟩ : Shape).Idx → EReal :=
  fun i => attention X Wq Wk Wv (i 0) (i 1) (i 2)

/-- At an entry written by coordinates. -/
theorem output_apply (X : (⟨3, ![64, 1024, 64]⟩ : Shape).Idx → EReal) (Wq Wk Wv : (⟨2, ![64, 16]⟩ : Shape).Idx → EReal)
    (b : Fin 64) (s : Fin 1024) (h : Fin 16) : output X Wq Wk Wv (ix3 b s h) = attention X Wq Wk Wv b s h := rfl

end Cert.Attention

end
-- ==== Proof.LibRows.lean ====
/-
  Rows of a matrix at the ideal values: the two "keep the axis" layout steps a row reduction is followed by, and
  the row reductions themselves read at a row.

  A reduction along the columns of an [a, b] matrix leaves a vector of length a. To use it against the matrix again a
  program views it as an [a, 1] column and broadcasts the column along the rows to [a, b]. Read at (i, j) the result is
  entry i of the vector, whatever j is (`column_apply`, `spread_apply`).

  The reductions: the maximum of row i folded from the accumulator's value over the row's entries
  (`rowMaximum_apply`), and the sum of row i (`rowSum_apply`), both with the row's entries written (i, k).
-/
import Idealize.ShloMosaic.PureOps.Ideal.Laws
import Idealize.ShloMosaic.Lib.ValueIdx
import Idealize.ShloMosaic.Lib.Pipeline.Value

noncomputable section

namespace Cert.LibRows

open Idealize.ShloMosaic Idealize.ShloMosaic.ValueIdx

variable {α : Type}

/-- A vector of length `a` viewed as an [a, 1] column reads entry `i` at (i, 0). -/
theorem column_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- An [a, 1] column broadcast along the rows to [a, b] reads the column's entry `i` at (i, j). -/
theorem spread_apply {a b : ℕ} (v : (⟨2, ![a, 1]⟩ : Shape).Idx → α) (h : (⟨2, ![a, 1]⟩ : Shape).Broadcasts ⟨2, ![a, b]⟩)
    (i : Fin a) (j : Fin b) (hb : a ≠ 1) : broadcastTo ⟨2, ![a, b]⟩ v h (ix2 i j) = v (ix2 i (0 : Fin 1)) :=
  broadcastTo_apply v h _ _ fun c => match c with
    | ⟨0, _⟩ => by
        show i.val = if a = 1 then 0 else i.val
        rw [if_neg hb]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The maximum along the columns, at row `i`: the fold of `max` from the accumulator's value over the row's entries. -/
theorem rowMaximum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ)
    (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  exact congrArg (Finset.fold max (Ideal.ofBits .f32 acc) · Finset.univ) (funext fun k => congrArg src (lift_row h i k))

/-- The sum along the columns, at row `i`: the sum of the row's entries. -/
theorem rowSum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRows

end
-- ==== Proof.KernelProducts.lean ====
/-
  The kernel's three matrix-unit products at an entry.

  Each is a product into a zero accumulator, so at the ideal values its entry is the plain sum of products over the one
  contracted coordinate. What differs is which coordinates of the entry each operand is read at: rows times columns for
  the projections ([1024, 64] by [64, 16]) and for the weights applied to the values ([1024, 1024] by [1024, 16]); rows
  against ROWS for queries against keys (both [1024, 16], both contracted along their second axis), so entry (i, j) pairs
  row i of the queries with row j of the keys.
-/
import proofs.«104742_j73744588472619_1_alg».proof.Proof.Gen.KernelIdeal
import Idealize.ShloMosaic.Lib.ValueIdx
import Idealize.ShloMosaic.PureOps.Ideal.Laws

noncomputable section

namespace Cert.KernelHead

open Cert.KernelIdeal Cert.KernelIdeal.Gen Idealize.ShloMosaic Idealize.ShloMosaic.ValueIdx

/-- [1024, 64] times [64, 16]: the three projections. -/
abbrev dotProj := dot_S1024x64_S64x16_S1024x16_1_0_0_1_n_n
/-- [1024, 16] against [1024, 16], both contracted along their second axis: queries against keys. -/
abbrev dotScore := dot_S1024x16_S1024x16_S1024x1024_1_1_0_0_n_n
/-- [1024, 1024] times [1024, 16]: the weights applied to the values. -/
abbrev dotMix := dot_S1024x1024_S1024x16_S1024x16_1_0_0_1_n_n

theorem dotProj_lhs0 (j : S1024x16.Idx) (q : dotProj.contr.Idx) : (dotProj.lhsIdx j q 0).val = (j 0).val := by
  unfold DotDims.lhsIdx
  rw [dif_neg (show ¬(0 : Fin S1024x64.rank) ∈ dotProj.lhsBatch by decide), dif_pos (show (0 : Fin S1024x64.rank) ∈ dotProj.lhsNonContracting by decide)]
  rfl

theorem dotProj_rhs1 (j : S1024x16.Idx) (q : dotProj.contr.Idx) : (dotProj.rhsIdx j q 1).val = (j 1).val := by
  unfold DotDims.rhsIdx
  rw [dif_neg (show ¬(1 : Fin S64x16.rank) ∈ dotProj.rhsBatch by decide), dif_pos (show (1 : Fin S64x16.rank) ∈ dotProj.rhsNonContracting by decide)]
  rfl

/-- Rows times columns over the 64 shared coordinates. -/
theorem projProduct_apply (x : FVec Ideal S1024x64 .bf16) (w : FVec Ideal S64x16 .bf16) (s : Fin 1024) (h : Fin 16) :
    matmul dotProj none x w (constant S1024x16 .f32 0x00000000#32) (ix2 s h) = ∑ c : Fin 64, x (ix2 s c) * w (ix2 c h) := by
  simp only [matmul]
  rw [Ideal.matmul_constant_zero_apply, ← Equiv.sum_comp (contrEquiv1 dotProj 64 rfl rfl).symm]
  refine Finset.sum_congr rfl fun k _ => ?_
  have hk := contrEquiv1_symm_val dotProj 64 rfl rfl k
  have el : dotProj.lhsIdx (ix2 s h) ((contrEquiv1 dotProj 64 rfl rfl).symm k) = ix2 s k := funext fun a => Fin.ext (by
    match a with
    | ⟨0, _⟩ => exact dotProj_lhs0 _ _
    | ⟨1, _⟩ => exact (dotProj.lhsIdx_val_of_single rfl _ _).trans hk)
  have er : dotProj.rhsIdx (ix2 s h) ((contrEquiv1 dotProj 64 rfl rfl).symm k) = ix2 k h := funext fun a => Fin.ext (by
    match a with
    | ⟨0, _⟩ => exact (dotProj.rhsIdx_val_of_single rfl _ _).trans hk
    | ⟨1, _⟩ => exact dotProj_rhs1 _ _)
  rw [el, er]

theorem dotScore_lhs0 (j : S1024x1024.Idx) (q : dotScore.contr.Idx) : (dotScore.lhsIdx j q 0).val = (j 0).val := by
  unfold DotDims.lhsIdx
  rw [dif_neg (show ¬(0 : Fin S1024x16.rank) ∈ dotScore.lhsBatch by decide), dif_pos (show (0 : Fin S1024x16.rank) ∈ dotScore.lhsNonContracting by decide)]
  rfl

theorem dotScore_rhs0 (j : S1024x1024.Idx) (q : dotScore.contr.Idx) : (dotScore.rhsIdx j q 0).val = (j 1).val := by
  unfold DotDims.rhsIdx
  rw [dif_neg (show ¬(0 : Fin S1024x16.rank) ∈ dotScore.rhsBatch by decide), dif_pos (show (0 : Fin S1024x16.rank) ∈ dotScore.rhsNonContracting by decide)]
  rfl

/-- Rows against rows over the 16 shared coordinates: entry (i, j) pairs row i of the left with row j of the right. -/
theorem scoreProduct_apply (q k : FVec Ideal S1024x16 .bf16) (i j : Fin 1024) :
    matmul dotScore none q k (constant S1024x1024 .f32 0x00000000#32) (ix2 i j) = ∑ h : Fin 16, q (ix2 i h) * k (ix2 j h) := by
  simp only [matmul]
  rw [Ideal.matmul_constant_zero_apply, ← Equiv.sum_comp (contrEquiv1 dotScore 16 rfl rfl).symm]
  refine Finset.sum_congr rfl fun e _ => ?_
  have he := contrEquiv1_symm_val dotScore 16 rfl rfl e
  have el : dotScore.lhsIdx (ix2 i j) ((contrEquiv1 dotScore 16 rfl rfl).symm e) = ix2 i e := funext fun a => Fin.ext (by
    match a with
    | ⟨0, _⟩ => exact dotScore_lhs0 _ _
    | ⟨1, _⟩ => exact (dotScore.lhsIdx_val_of_single rfl _ _).trans he)
  have er : dotScore.rhsIdx (ix2 i j) ((contrEquiv1 dotScore 16 rfl rfl).symm e) = ix2 j e := funext fun a => Fin.ext (by
    match a with
    | ⟨0, _⟩ => exact dotScore_rhs0 _ _
    | ⟨1, _⟩ => exact (dotScore.rhsIdx_val_of_single rfl _ _).trans he)
  rw [el, er]

theorem dotMix_lhs0 (j : S1024x16.Idx) (q : dotMix.contr.Idx) : (dotMix.lhsIdx j q 0).val = (j 0).val := by
  unfold DotDims.lhsIdx
  rw [dif_neg (show ¬(0 : Fin S1024x1024.rank) ∈ dotMix.lhsBatch by decide), dif_pos (show (0 : Fin S1024x1024.rank) ∈ dotMix.lhsNonContracting by decide)]
  rfl

theorem dotMix_rhs1 (j : S1024x16.Idx) (q : dotMix.contr.Idx) : (dotMix.rhsIdx j q 1).val = (j 1).val := by
  unfold DotDims.rhsIdx
  rw [dif_neg (show ¬(1 : Fin S1024x16.rank) ∈ dotMix.rhsBatch by decide), dif_pos (show (1 : Fin S1024x16.rank) ∈ dotMix.rhsNonContracting by decide)]
  rfl

/-- Rows times columns over the 1024 shared coordinates. -/
theorem mixProduct_apply (p : FVec Ideal S1024x1024 .bf16) (v : FVec Ideal S1024x16 .bf16) (i : Fin 1024) (h : Fin 16) :
    matmul dotMix none p v (constant S1024x16 .f32 0x00000000#32) (ix2 i h) = ∑ j : Fin 1024, p (ix2 i j) * v (ix2 j h) := by
  simp only [matmul]
  rw [Ideal.matmul_constant_zero_apply, ← Equiv.sum_comp (contrEquiv1 dotMix 1024 rfl rfl).symm]
  refine Finset.sum_congr rfl fun k _ => ?_
  have hk := contrEquiv1_symm_val dotMix 1024 rfl rfl k
  have el : dotMix.lhsIdx (ix2 i h) ((contrEquiv1 dotMix 1024 rfl rfl).symm k) = ix2 i k := funext fun a => Fin.ext (by
    match a with
    | ⟨0, _⟩ => exact dotMix_lhs0 _ _
    | ⟨1, _⟩ => exact (dotMix.lhsIdx_val_of_single rfl _ _).trans hk)
  have er : dotMix.rhsIdx (ix2 i h) ((contrEquiv1 dotMix 1024 rfl rfl).symm k) = ix2 k h := funext fun a => Fin.ext (by
    match a with
    | ⟨0, _⟩ => exact (dotMix.rhsIdx_val_of_single rfl _ _).trans hk
    | ⟨1, _⟩ => exact dotMix_rhs1 _ _)
  rw [el, er]

end Cert.KernelHead

end
-- ==== Proof.KernelHead.lean ====
/-
  What the kernel's body computes from one slab, entry by entry.

  The body's one stored value is a chain of matrix-unit products and row operations on a [1, 1024, 64] block `x` and three
  [64, 16] matrices. Its stages are named here (`projected`, `scores`, `rowMaxima`, `weights`, `normalised`, `combined`)
  and the stored value is their composition (`payload_eq`, by unfolding). Read at an entry, each stage is the
  specification's function of the same name applied to the stage's operands read at entries:
  a matrix-unit product into a zero accumulator is the plain sum of products over the contracted coordinate — rows times
  columns for the projections and for the final combination, rows times ROWS for the scores (the keys are contracted
  along their own second axis, no transpose is formed) —, a change of float format is the identity, a row maximum is the
  fold of `max` over the row, a row sum the sum over the row, and a row statistic viewed as a column and broadcast back
  along the row is the statistic of that row. Composed: the stored value at (0, s, h) is `Attention.head` of the block's
  entries at (s, h) (`payload_apply`).
-/
import proofs.«104742_j73744588472619_1_alg».proof.Proof.Gen.KernelIdeal.Skeleton
import proofs.«104742_j73744588472619_1_alg».proof.Proof.Attention
import proofs.«104742_j73744588472619_1_alg».proof.Proof.LibRows
import proofs.«104742_j73744588472619_1_alg».proof.Proof.KernelProducts
import Idealize.ShloMosaic.Lib.ValueLayout
import Idealize.ShloMosaic.Lib.ValueIdx
import Idealize.ShloMosaic.PureOps.Ideal.Laws

noncomputable section

namespace Cert.KernelHead

open Cert.KernelIdeal Cert.KernelIdeal.Gen Idealize.ShloMosaic Idealize.ShloMosaic.ValueIdx

/-! ## The stages -/

/-- A projection of the block: the block without its unit axis, times a matrix, into zero. -/
def projected (x : Vec Ideal S1x1024x64 .f32) (w : Vec Ideal S64x16 .f32) : FVec Ideal S1024x16 .bf16 :=
  truncf .bf16 (matmul dotProj none (truncf .bf16 (shapeCast S1024x64 x shapeCasts_S1x1024x64_S1024x64) bitsLt_bf16_f32)
    (truncf .bf16 w bitsLt_bf16_f32) (constant S1024x16 .f32 0x00000000#32)) bitsLt_bf16_f32

/-- Queries against keys, scaled. -/
def scores (q k : FVec Ideal S1024x16 .bf16) : FVec Ideal S1024x1024 .f32 :=
  mulf (matmul dotScore none q k (constant S1024x1024 .f32 0x00000000#32)) (broadcast S1024x1024 (Scalar.ofBits .f32 0x3E000000#32))

/-- Each row's maximum, from `-∞`, compared once more with `-∞`. -/
def rowMaxima (w : FVec Ideal S1024x1024 .f32) : FVec Ideal S1024 .f32 :=
  maximumf (broadcast S1024 (Scalar.ofBits .f32 0xFF800000#32))
    (multiReduction .maximumf [1] S1024 w 0xFF800000#32 reduces_S1024x1024_S1024 (.inl rfl) rfl)

/-- `exp` of each entry less its row's maximum. -/
def weights (w : FVec Ideal S1024x1024 .f32) : FVec Ideal S1024x1024 .f32 :=
  exp (subf w (broadcastTo S1024x1024 (shapeCast S1024x1 (rowMaxima w) shapeCasts_S1024_S1024x1) broadcasts_S1024x1_S1024x1024))

/-- Each weight over its row's sum. -/
def normalised (w : FVec Ideal S1024x1024 .f32) : FVec Ideal S1024x1024 .f32 :=
  divf (weights w) (broadcastTo S1024x1024 (shapeCast S1024x1
    (multiReduction .add [1] S1024 (weights w) 0x00000000#32 reduces_S1024x1024_S1024 (.inl rfl) rfl) shapeCasts_S1024_S1024x1)
    broadcasts_S1024x1_S1024x1024)

/-- The weights applied to the values, stored with a leading unit axis. -/
def combined (p : FVec Ideal S1024x1024 .f32) (v : FVec Ideal S1024x16 .bf16) : FVec Ideal S1x1024x16 .f32 :=
  shapeCast S1x1024x16 (matmul dotMix none (truncf .bf16 p bitsLt_bf16_f32) v (constant S1024x16 .f32 0x00000000#32))
    shapeCasts_S1024x16_S1x1024x16

/-- The body's stored value is the composition of the stages. -/
theorem payload_eq (x : Vec Ideal S1x1024x64 .f32) (wq wk wv : Vec Ideal S64x16 .f32) :
    k0_pay1 x wq wk wv = combined (normalised (scores (projected x wq) (projected x wk))) (projected x wv) := rfl

/-! ## The stages at an entry -/

theorem projected_apply (x : Vec Ideal S1x1024x64 .f32) (w : Vec Ideal S64x16 .f32) (s : Fin 1024) (h : Fin 16) :
    projected x w (ix2 s h) = Attention.proj (fun r c => x (ix3 (0 : Fin 1) r c)) (fun c e => w (ix2 c e)) s h := by
  unfold projected Attention.proj
  show matmul (F := Ideal) dotProj none _ _ (constant (F := Ideal) S1024x16 .f32 0x00000000#32) (ix2 s h) = _
  refine (projProduct_apply _ _ s h).trans (Finset.sum_congr rfl fun c _ => ?_)
  show shapeCast S1024x64 x shapeCasts_S1x1024x64_S1024x64 (ix2 s c) * w (ix2 c h) = _
  rw [shapeCast_1ab_ab_apply]

theorem scores_apply (q k : FVec Ideal S1024x16 .bf16) (i j : Fin 1024) :
    scores q k (ix2 i j) = Attention.score (fun s h => q (ix2 s h)) (fun s h => k (ix2 s h)) i j := by
  unfold scores Attention.score
  show matmul (F := Ideal) dotScore none q k (constant (F := Ideal) S1024x1024 .f32 0x00000000#32) (ix2 i j) * Ideal.ofBits .f32 0x3E000000#32 = _
  rw [scoreProduct_apply]

theorem rowMaxima_apply (w : FVec Ideal S1024x1024 .f32) (i : Fin 1024) :
    rowMaxima w (ix1 i) = Attention.rowMax (fun i j => w (ix2 i j)) i := by
  unfold rowMaxima Attention.rowMax
  rw [maximumf_apply, broadcast_apply, Ideal.ofBits_def]
  exact congrArg (max (Ideal.ofBits .f32 0xFF800000#32)) (LibRows.rowMaximum_apply w _ _ _ _ i)

theorem weights_apply (w : FVec Ideal S1024x1024 .f32) (i j : Fin 1024) :
    weights w (ix2 i j) = Attention.weight (fun i j => w (ix2 i j)) i j := by
  unfold weights Attention.weight
  show Ideal.exp (w (ix2 i j)
    - broadcastTo S1024x1024 (shapeCast S1024x1 (rowMaxima w) shapeCasts_S1024_S1024x1) broadcasts_S1024x1_S1024x1024 (ix2 i j)) = _
  exact congrArg (fun z => Ideal.exp (w (ix2 i j) - z))
    ((LibRows.spread_apply _ _ i j (by decide)).trans ((LibRows.column_apply _ _ i 0).trans (rowMaxima_apply w i)))

theorem normalised_apply (w : FVec Ideal S1024x1024 .f32) (i j : Fin 1024) :
    normalised w (ix2 i j) = Attention.softmax (fun i j => w (ix2 i j)) i j := by
  unfold normalised Attention.softmax
  show Ideal.div (weights w (ix2 i j)) (broadcastTo S1024x1024 (shapeCast S1024x1
    (multiReduction .add [1] S1024 (weights w) 0x00000000#32 reduces_S1024x1024_S1024 (.inl rfl) rfl) shapeCasts_S1024_S1024x1)
    broadcasts_S1024x1_S1024x1024 (ix2 i j)) = _
  exact congrArg₂ Ideal.div (weights_apply w i j)
    ((LibRows.spread_apply _ _ i j (by decide)).trans ((LibRows.column_apply _ _ i 0).trans
      ((LibRows.rowSum_apply (weights w) _ _ _ _ i).trans (Finset.sum_congr rfl fun l _ => weights_apply w i l))))

theorem combined_apply (p : FVec Ideal S1024x1024 .f32) (v : FVec Ideal S1024x16 .bf16) (u : Fin 1) (i : Fin 1024) (h : Fin 16) :
    combined p v (ix3 u i h) = Attention.mix (fun i j => p (ix2 i j)) (fun j e => v (ix2 j e)) i h := by
  unfold combined Attention.mix
  refine (shapeCast_ab_1ab_apply _ _ u i h).trans ?_
  exact mixProduct_apply _ _ i h

/-! ## The stages as functions of their coordinates, and the composition -/

theorem projected_fn (x : Vec Ideal S1x1024x64 .f32) (w : Vec Ideal S64x16 .f32) :
    (fun s h => projected x w (ix2 s h)) = Attention.proj (fun r c => x (ix3 (0 : Fin 1) r c)) (fun c e => w (ix2 c e)) :=
  funext fun s => funext fun h => projected_apply x w s h

theorem scores_fn (q k : FVec Ideal S1024x16 .bf16) :
    (fun i j => scores q k (ix2 i j)) = Attention.score (fun s h => q (ix2 s h)) (fun s h => k (ix2 s h)) :=
  funext fun i => funext fun j => scores_apply q k i j

theorem normalised_fn (w : FVec Ideal S1024x1024 .f32) :
    (fun i j => normalised w (ix2 i j)) = Attention.softmax (fun i j => w (ix2 i j)) :=
  funext fun i => funext fun j => normalised_apply w i j

/-- The body's stored value at (0, s, h): one attention head of the block's entries, at (s, h). -/
theorem payload_apply (x : Vec Ideal S1x1024x64 .f32) (wq wk wv : Vec Ideal S64x16 .f32) (u : Fin 1) (s : Fin 1024) (h : Fin 16) :
    k0_pay1 x wq wk wv (ix3 u s h)
      = Attention.head (fun r c => x (ix3 (0 : Fin 1) r c)) (fun c e => wq (ix2 c e)) (fun c e => wk (ix2 c e)) (fun c e => wv (ix2 c e)) s h := by
  rw [payload_eq, combined_apply, normalised_fn, scores_fn, projected_fn, projected_fn, projected_fn]
  rfl

end Cert.KernelHead

end
-- ==== Proof.KernelArray.lean ====
/-
  From the kernel's blocks to its result array.

  The grid has one point per slab. At point `t` the input window of the [64, 1024, 64] argument holds slab `t` (block
  index (t, 0, 0) with block size [1, 1024, 64]), the three matrix windows hold their whole [64, 16] arrays (block index
  (0, 0)), and the output window writes block (t, 0, 0) of size [1, 1024, 16], that is slab `t` of the result. So entry
  (0, s, h) of what point `t` writes back is the body's value of slab `t`, which is head `t`'s output at (s, h): point `t`
  writes slab `t` of `Attention.output` of the argument arrays (`flushed_eq`). Every entry (b, s, h) of the result lies
  in the block of point `b` (`cover`), so after the run the result array is `Attention.output` of the arguments
  (`final`), and the run is re-posted with that array named (`run`).
-/
import proofs.«104742_j73744588472619_1_alg».proof.Proof.Gen.KernelIdeal.Value
import proofs.«104742_j73744588472619_1_alg».proof.Proof.KernelHead

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 64 points: the slab windows sit at block (t, 0, 0), the matrix windows at
    block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- A block holding slab `b` of `X` and the three whole matrices: the body's value at a block entry is the
    specification's output at the array entry over it. -/
theorem block_entry (X : S64x1024x64.Idx → EReal) (Wq Wk Wv : S64x16.Idx → EReal)
    (x : Vec Ideal S1x1024x64 .f32) (wq wk wv : Vec Ideal S64x16 .f32) (b : Fin 64)
    (hx : ∀ (r : Fin 1024) (c : Fin 64), x (ix3 (0 : Fin 1) r c) = X (ix3 b r c)) (hq : wq = Wq) (hk : wk = Wk) (hv : wv = Wv)
    (y : S1x1024x16.Idx) (i : S64x1024x16.Idx) (h0 : (i 0).val = b.val) (h1 : (i 1).val = (y 1).val) (h2 : (i 2).val = (y 2).val) :
    k0_pay1 x wq wk wv y = Attention.output X Wq Wk Wv i := by
  subst hq hk hv
  obtain ⟨u, s, h, rfl⟩ : ∃ (u : Fin 1) (s : Fin 1024) (h : Fin 16), y = ix3 u s h := ⟨y 0, y 1, y 2, eq_ix3 y⟩
  obtain rfl : i = ix3 b s h := funext fun a => Fin.ext (by
    match a with
    | ⟨0, _⟩ => exact h0
    | ⟨1, _⟩ => exact h1
    | ⟨2, _⟩ => exact h2)
  rw [KernelHead.payload_apply, Attention.output_apply]
  unfold Attention.attention
  have hX : (fun r c => x (ix3 (0 : Fin 1) r c)) = fun r c => X (ix3 b r c) := funext fun r => funext fun c => hx r c
  rw [hX]

/-! ## The input windows' blocks -/

/-- The slab window's block at point `t` is slab `t` of the argument. -/
theorem slab_block (c : Dev nD) (t : Fin cfg0.N) (b : Fin 64) (hb : b.val = t.val) (r : Fin 1024) (e : Fin 64) :
    (iblk m c 0 t : Vec Ideal S1x1024x64 .f32) (ix3 (0 : Fin 1) r e) = (V m c main_arg0 : S64x1024x64.Idx → EReal) (ix3 b r e) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 1024 + 1 * r.val = r.val; rw [e1]; omega
  | ⟨2, _⟩ => show win0_0.index t (2 : Fin 3) * 64 + 1 * e.val = e.val; rw [e2]; omega

/-- Each matrix window's block, at every point, is its whole array. -/
theorem matrix_block1 (c : Dev nD) (t : Fin cfg0.N) : (iblk m c 1 t : Vec Ideal S64x16 .f32) = (V m c main_arg1 : S64x16.Idx → EReal) := by
  obtain ⟨-, -, -, e0, e1, -⟩ := idx_facts t
  funext j
  unfold iblk
  rw [View.read_apply]
  show V m c main_arg1 _ = V m c main_arg1 j
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 16 + 1 * (j 1).val = (j 1).val; rw [e1]; omega

theorem matrix_block2 (c : Dev nD) (t : Fin cfg0.N) : (iblk m c 2 t : Vec Ideal S64x16 .f32) = (V m c main_arg2 : S64x16.Idx → EReal) := by
  obtain ⟨-, -, -, -, -, e0, e1, -⟩ := idx_facts t
  funext j
  unfold iblk
  rw [View.read_apply]
  show V m c main_arg2 _ = V m c main_arg2 j
  congr 1
  funext a
  apply Fin.ext
  match a with
  | ⟨0, _⟩ => show win0_2.index t (0 : Fin 2) * 64 + 1 * (j 0).val = (j 0).val; rw [e0]; omega
  | ⟨1, _⟩ => show win0_2.index t (1 : Fin 2) * 16 + 1 * (j 1).val = (j 1).val; rw [e1]; omega

theorem matrix_block3 (c : Dev nD) (t : Fin cfg0.N) : (iblk m c 3 t : Vec Ideal S64x16 .f32) = (V m c main_arg3 : S64x16.Idx → EReal) := by
  obtain ⟨-, -, -, -, -, -, -, e0, e1, -⟩ := idx_facts t
  funext j
  unfold iblk
  rw [View.read_apply]
  show V m c main_arg3 _ = V m c main_arg3 j
  congr 1
  funext a
  apply Fin.ext
  match a with
  | ⟨0, _⟩ => show win0_3.index t (0 : Fin 2) * 64 + 1 * (j 0).val = (j 0).val; rw [e0]; omega
  | ⟨1, _⟩ => show win0_3.index t (1 : Fin 2) * 16 + 1 * (j 1).val = (j 1).val; rw [e1]; omega

/-! ## What a point writes back, and the array after the run -/

/-- Point `t` writes back slab `t` of the specification's output of the argument arrays. -/
theorem flushed_eq (c : Dev nD) (t : Fin cfg0.N) :
    (dats m 0 c).flushed 4 t = ((cfg0.win 4).blk t).view.read (Elt Ideal)
      (Attention.output (V m c main_arg0) (V m c main_arg1) (V m c main_arg2) (V m c main_arg3)) := by
  rw [Value.flushed4]
  unfold out0_4
  rw [View.canon_unit_zero zeros3]
  simp only [View.ld_unit_zero (S := S1x1024x64) zeros3, View.ld_unit_zero (S := S64x16) zeros2]
  have hN : cfg0.N = 64 := N_0
  have ht : t.val < 64 := by have := t.isLt; omega
  obtain ⟨-, -, -, -, -, -, -, -, -, f0, f1, f2⟩ := idx_facts t
  funext y
  show k0_pay1 (iblk m c 0 t) (iblk m c 1 t) (iblk m c 2 t) (iblk m c 3 t) y
    = Attention.output (V m c main_arg0) (V m c main_arg1) (V m c main_arg2) (V m c main_arg3) (((cfg0.win 4).blk t).view.emb y)
  have hy0 : (y 0).val < 1 := (y 0).isLt
  refine block_entry (V m c main_arg0) (V m c main_arg1) (V m c main_arg2) (V m c main_arg3)
    (iblk m c 0 t) (iblk m c 1 t) (iblk m c 2 t) (iblk m c 3 t) ⟨t.val, ht⟩
    (fun r e => slab_block m c t ⟨t.val, ht⟩ rfl r e) (matrix_block1 m c t) (matrix_block2 m c t) (matrix_block3 m c t)
    y (((cfg0.win 4).blk t).view.emb y) ?_ ?_ ?_
  · show win0_4.index t (0 : Fin 3) * 1 + 1 * (y 0).val = t.val
    rw [f0]; omega
  · show win0_4.index t (1 : Fin 3) * 1024 + 1 * (y 1).val = (y 1).val
    rw [f1]; omega
  · show win0_4.index t (2 : Fin 3) * 16 + 1 * (y 2).val = (y 2).val
    rw [f2]; omega

/-- An entry of the result is in point `t`'s block iff each coordinate is in the block's range on its axis. -/
theorem mem_block (t : Fin cfg0.N) (i : S64x1024x16.Idx) :
    i ∈ ((cfg0.win 4).blk t).view.set ↔ ∀ a : Fin 3, win0_4.index t a * S1x1024x16.size a ≤ (i a).val
      ∧ (i a).val < win0_4.index t a * S1x1024x16.size a + S1x1024x16.size a := by
  show i ∈ ((View.whole main_v0).slice (win0_4.rect t)).set ↔ _
  rw [View.set_slice_whole, Rect.mem_set_unit]
  exact Iff.rfl

/-- Entry (b, s, h) of the result lies in the block of point `b`. -/
theorem cover (i : S64x1024x16.Idx) : ∃ t : Fin cfg0.N, (cfg0.win 4).flush t = true ∧ i ∈ ((cfg0.win 4).blk t).view.set := by
  have hN : cfg0.N = 64 := N_0
  have hi0 : (i 0).val < 64 := (i 0).isLt
  have hi1 : (i 1).val < 1024 := (i 1).isLt
  have hi2 : (i 2).val < 16 := (i 2).isLt
  obtain ⟨t, ht⟩ : ∃ t : Fin cfg0.N, t.val = (i 0).val := ⟨⟨(i 0).val, by omega⟩, rfl⟩
  obtain ⟨-, -, -, -, -, -, -, -, -, f0, f1, f2⟩ := idx_facts t
  refine ⟨t, flush0_4 t, ?_⟩
  rw [mem_block]
  intro a
  match a with
  | ⟨0, _⟩ =>
    show win0_4.index t (0 : Fin 3) * 1 ≤ (i 0).val ∧ (i 0).val < win0_4.index t (0 : Fin 3) * 1 + 1
    rw [f0]; omega
  | ⟨1, _⟩ =>
    show win0_4.index t (1 : Fin 3) * 1024 ≤ (i 1).val ∧ (i 1).val < win0_4.index t (1 : Fin 3) * 1024 + 1024
    rw [f1]; omega
  | ⟨2, _⟩ =>
    show win0_4.index t (2 : Fin 3) * 16 ≤ (i 2).val ∧ (i 2).val < win0_4.index t (2 : Fin 3) * 16 + 16
    rw [f2]; omega

/-- After the run the result array is the specification's output of the argument arrays. -/
theorem final (c : Dev nD) : (dats m 0 c).arrAt 4 cfg0.N
    = Attention.output (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) (fun i => cover i)

/-- The run, with the result array named: every weakly fair execution terminates with the result at the specification's
    output of the arguments and the arguments unchanged. -/
theorem run : θ_run defs (onTc (τ := τ) (main (F := Ideal))) ⟨m, fun _ => 0, ρ⟩ fun r => ∀ c : Dev nD,
      r.2.mem ((c : Thread nD τ).loc main_v0)
        = Attention.output (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelArray

end
-- ==== Proof.ReferenceHead.lean ====
/-
  What the reference computes, entry by entry.

  The reference is the same chain written on whole [64, …] arrays with a leading slab axis: three products of the
  [64, 1024, 64] argument with a [64, 16] matrix, the product of queries and keys batched over the slab and contracted
  along the 16 projected coordinates, the scale, the row maximum from `-∞` (a reduction along the last axis, then a
  comparison with `-∞`), the subtraction, `exp`, the row sum from zero, the quotient, and the batched product with the
  values. Every stage's entry at slab `b` depends on slab `b` alone, and is the specification's function of that name of
  the previous stages' entries at slab `b`. Stage by stage (the index functions of each layout step composed and read
  off by coordinates), the result at (b, s, h) is `Attention.attention` of the arguments at (b, s, h)
  (`reference_apply`). The zero the sum starts from is absorbed (`0 + x = x`); nothing else is used of the numbers.
-/
import proofs.«104742_j73744588472619_1_alg».proof.Proof.Gen.ReferenceIdeal.Read
import proofs.«104742_j73744588472619_1_alg».proof.Proof.Attention
import Idealize.ShloMosaic.PureOps.Ideal.Laws
import Idealize.ShloMosaic.Lib.ValueIdx

noncomputable section

namespace Cert.ReferenceHead

open Cert.ReferenceIdeal Cert.ReferenceIdeal.Gen Cert.ReferenceIdeal.Read Idealize.ShloMosaic Idealize.ShloMosaic.ValueIdx

variable (X : (⟨S64x1024x64, .f32⟩ : BufTy).Contents (Elt Ideal)) (Wq Wk Wv : (⟨S64x16, .f32⟩ : BufTy).Contents (Elt Ideal))

/-! ## The layout steps' index functions, by coordinates -/

theorem lidx0 (b : Fin 64) (s : Fin 1024) (h : Fin 16) (k : Fin 64) : lidx_main_v0 (ix3 b s h) k = ix3 b s k :=
  funext fun a => by match a with | ⟨0, _⟩ => rfl | ⟨1, _⟩ => rfl | ⟨2, _⟩ => rfl
theorem ridx0 (b : Fin 64) (s : Fin 1024) (h : Fin 16) (k : Fin 64) : ridx_main_v0 (ix3 b s h) k = ix2 k h :=
  funext fun a => by match a with | ⟨0, _⟩ => rfl | ⟨1, _⟩ => rfl
theorem lidx1 (b : Fin 64) (s : Fin 1024) (h : Fin 16) (k : Fin 64) : lidx_main_v1 (ix3 b s h) k = ix3 b s k :=
  funext fun a => by match a with | ⟨0, _⟩ => rfl | ⟨1, _⟩ => rfl | ⟨2, _⟩ => rfl
theorem ridx1 (b : Fin 64) (s : Fin 1024) (h : Fin 16) (k : Fin 64) : ridx_main_v1 (ix3 b s h) k = ix2 k h :=
  funext fun a => by match a with | ⟨0, _⟩ => rfl | ⟨1, _⟩ => rfl
theorem lidx2 (b : Fin 64) (s : Fin 1024) (h : Fin 16) (k : Fin 64) : lidx_main_v2 (ix3 b s h) k = ix3 b s k :=
  funext fun a => by match a with | ⟨0, _⟩ => rfl | ⟨1, _⟩ => rfl | ⟨2, _⟩ => rfl
theorem ridx2 (b : Fin 64) (s : Fin 1024) (h : Fin 16) (k : Fin 64) : ridx_main_v2 (ix3 b s h) k = ix2 k h :=
  funext fun a => by match a with | ⟨0, _⟩ => rfl | ⟨1, _⟩ => rfl
theorem lidx3 (b : Fin 64) (i j : Fin 1024) (k : Fin 16) : lidx_main_v3 (ix3 b i j) k = ix3 b i k :=
  funext fun a => by match a with | ⟨0, _⟩ => rfl | ⟨1, _⟩ => rfl | ⟨2, _⟩ => rfl
theorem ridx3 (b : Fin 64) (i j : Fin 1024) (k : Fin 16) : ridx_main_v3 (ix3 b i j) k = ix3 b j k :=
  funext fun a => by match a with | ⟨0, _⟩ => rfl | ⟨1, _⟩ => rfl | ⟨2, _⟩ => rfl
/-- A row statistic broadcast back over the row is read at the row: (b, i, j) ↦ (b, i, 0) ↦ (b, i). -/
theorem idx_row_max (b : Fin 64) (i j : Fin 1024) : idx_main_v9 (idx_main_v10 (ix3 b i j)) = ix2 b i :=
  funext fun a => by match a with | ⟨0, _⟩ => rfl | ⟨1, _⟩ => rfl
theorem idx_row_sum (b : Fin 64) (i j : Fin 1024) : idx_main_v14 (idx_main_v15 (ix3 b i j)) = ix2 b i :=
  funext fun a => by match a with | ⟨0, _⟩ => rfl | ⟨1, _⟩ => rfl
theorem idx13 (b : Fin 64) (i : Fin 1024) (k : Fin 1024) : idx_main_v13 (ix2 b i) k = ix3 b i k :=
  funext fun a => by match a with | ⟨0, _⟩ => rfl | ⟨1, _⟩ => rfl | ⟨2, _⟩ => rfl
theorem lidx17 (b : Fin 64) (i : Fin 1024) (h : Fin 16) (k : Fin 1024) : lidx_main_v17 (ix3 b i h) k = ix3 b i k :=
  funext fun a => by match a with | ⟨0, _⟩ => rfl | ⟨1, _⟩ => rfl | ⟨2, _⟩ => rfl
theorem ridx17 (b : Fin 64) (i : Fin 1024) (h : Fin 16) (k : Fin 1024) : ridx_main_v17 (ix3 b i h) k = ix3 b k h :=
  funext fun a => by match a with | ⟨0, _⟩ => rfl | ⟨1, _⟩ => rfl | ⟨2, _⟩ => rfl
/-- The source index over (b, i) with `k` inserted on the last axis is (b, i, k). -/
theorem lift_row (hr : S64x1024x1024.Reduces [2] S64x1024) (b : Fin 64) (i k : Fin 1024) : hr.lift (ix2 b i) k = ix3 b i k :=
  funext fun a => Fin.ext (by match a with | ⟨0, _⟩ => rfl | ⟨1, _⟩ => rfl | ⟨2, _⟩ => rfl)

/-! ## The stages at an entry of slab `b` -/

theorem queries_apply (b : Fin 64) (s : Fin 1024) (h : Fin 16) :
    val_main_v0 (F := Ideal) X Wq (ix3 b s h) = Attention.proj (fun r c => X (ix3 b r c)) (fun c e => Wq (ix2 c e)) s h := by
  rw [val_main_v0_apply]
  unfold Attention.proj
  refine Finset.sum_congr rfl fun k _ => ?_
  rw [lidx0, ridx0]

theorem keys_apply (b : Fin 64) (s : Fin 1024) (h : Fin 16) :
    val_main_v1 (F := Ideal) X Wk (ix3 b s h) = Attention.proj (fun r c => X (ix3 b r c)) (fun c e => Wk (ix2 c e)) s h := by
  rw [val_main_v1_apply]
  unfold Attention.proj
  refine Finset.sum_congr rfl fun k _ => ?_
  rw [lidx1, ridx1]

theorem values_apply (b : Fin 64) (s : Fin 1024) (h : Fin 16) :
    val_main_v2 (F := Ideal) X Wv (ix3 b s h) = Attention.proj (fun r c => X (ix3 b r c)) (fun c e => Wv (ix2 c e)) s h := by
  rw [val_main_v2_apply]
  unfold Attention.proj
  refine Finset.sum_congr rfl fun k _ => ?_
  rw [lidx2, ridx2]

theorem scores_apply (b : Fin 64) (i j : Fin 1024) :
    val_main_v5 (F := Ideal) X Wq Wk (ix3 b i j)
      = Attention.score (fun s h => val_main_v0 (F := Ideal) X Wq (ix3 b s h)) (fun s h => val_main_v1 (F := Ideal) X Wk (ix3 b s h)) i j := by
  rw [val_main_v5_apply, val_main_v3_apply, val_main_v4_apply, val_main_cst_apply, Ideal.mulf_def, Ideal.ofBits_def]
  unfold Attention.score
  refine congrArg (· * Ideal.ofBits .f32 0x3E000000#32) (Finset.sum_congr rfl fun k _ => ?_)
  rw [lidx3, ridx3]

theorem rowMax_apply (b : Fin 64) (i : Fin 1024) :
    val_main_v8 (F := Ideal) X Wq Wk (ix2 b i) = Attention.rowMax (fun i j => val_main_v5 (F := Ideal) X Wq Wk (ix3 b i j)) i := by
  rw [val_main_v8_apply, val_main_v7_apply, val_main_cst_1_apply, Ideal.maximumf_def, Ideal.ofBits_def]
  unfold Attention.rowMax val_main_v6
  generalize val_main_v5 (F := Ideal) X Wq Wk = y
  refine congrArg (max (Ideal.ofBits .f32 0xFF800000#32)) ?_
  have hr : S64x1024x1024.Reduces [2] S64x1024 := by decide
  refine (Host.reduce_eq_fold_single (α := Ideal .f32) (FloatOps.maximumf (F := Ideal) (φ := .f32)) y (val_main_cst_0 (F := Ideal))
    reducesTo_S64x1024x1024_S64x1024_d2 hr h_S_ (ix2 b i)).trans ?_
  rw [val_main_cst_0_apply, Ideal.ofBits_def]
  exact congrArg (fun f => Finset.fold max (Ideal.ofBits .f32 0xFF800000#32) f Finset.univ)
    (funext fun k => congrArg y (lift_row hr b i k))

theorem weights_apply (b : Fin 64) (i j : Fin 1024) :
    val_main_v12 (F := Ideal) X Wq Wk (ix3 b i j) = Attention.weight (fun i j => val_main_v5 (F := Ideal) X Wq Wk (ix3 b i j)) i j := by
  rw [val_main_v12_apply, val_main_v11_apply, val_main_v10_apply, val_main_v9_apply, Ideal.hostUnary_exp_def, Ideal.subf_def,
    idx_row_max, rowMax_apply]
  rfl

theorem softmax_apply (b : Fin 64) (i j : Fin 1024) :
    val_main_v16 (F := Ideal) X Wq Wk (ix3 b i j) = Attention.softmax (fun i j => val_main_v5 (F := Ideal) X Wq Wk (ix3 b i j)) i j := by
  rw [val_main_v16_apply, val_main_v15_apply, val_main_v14_apply, idx_row_sum, val_main_v13_apply, val_main_cst_2_apply,
    Ideal.hostDivf_def, Ideal.ofBits_def, Ideal.ofBits_zero_f32, zero_add, weights_apply]
  unfold Attention.softmax
  refine congrArg (Ideal.div _) (Finset.sum_congr rfl fun k _ => ?_)
  rw [idx13, weights_apply]

theorem result_apply (b : Fin 64) (s : Fin 1024) (h : Fin 16) :
    val_main_v17 (F := Ideal) X Wq Wk Wv (ix3 b s h)
      = Attention.mix (fun i j => val_main_v16 (F := Ideal) X Wq Wk (ix3 b i j)) (fun j e => val_main_v2 (F := Ideal) X Wv (ix3 b j e)) s h := by
  rw [val_main_v17_apply]
  unfold Attention.mix
  refine Finset.sum_congr rfl fun k _ => ?_
  rw [lidx17, ridx17]

/-! ## The composition -/

/-- The reference's result at (b, s, h) is one attention head of slab `b` of the argument, at (s, h). -/
theorem reference_apply (b : Fin 64) (s : Fin 1024) (h : Fin 16) :
    val_main_v17 (F := Ideal) X Wq Wk Wv (ix3 b s h) = Attention.attention X Wq Wk Wv b s h := by
  rw [result_apply]
  unfold Attention.attention Attention.head
  have hq : (fun s h => val_main_v0 (F := Ideal) X Wq (ix3 b s h)) = Attention.proj (fun r c => X (ix3 b r c)) (fun c e => Wq (ix2 c e)) :=
    funext fun s => funext fun h => queries_apply X Wq b s h
  have hk : (fun s h => val_main_v1 (F := Ideal) X Wk (ix3 b s h)) = Attention.proj (fun r c => X (ix3 b r c)) (fun c e => Wk (ix2 c e)) :=
    funext fun s => funext fun h => keys_apply X Wk b s h
  have hv : (fun j e => val_main_v2 (F := Ideal) X Wv (ix3 b j e)) = Attention.proj (fun r c => X (ix3 b r c)) (fun c e => Wv (ix2 c e)) :=
    funext fun s => funext fun h => values_apply X Wv b s h
  have hs : (fun i j => val_main_v5 (F := Ideal) X Wq Wk (ix3 b i j))
      = Attention.score (fun s h => val_main_v0 (F := Ideal) X Wq (ix3 b s h)) (fun s h => val_main_v1 (F := Ideal) X Wk (ix3 b s h)) :=
    funext fun i => funext fun j => scores_apply X Wq Wk b i j
  have hp : (fun i j => val_main_v16 (F := Ideal) X Wq Wk (ix3 b i j))
      = Attention.softmax (fun i j => val_main_v5 (F := Ideal) X Wq Wk (ix3 b i j)) :=
    funext fun i => funext fun j => softmax_apply X Wq Wk b i j
  rw [hp, hs, hq, hk, hv]

/-- The reference's whole result array is the specification's. -/
theorem reference_eq : val_main_v17 (F := Ideal) X Wq Wk Wv = Attention.output X Wq Wk Wv := by
  funext i
  obtain ⟨b, s, h, rfl⟩ : ∃ (b : Fin 64) (s : Fin 1024) (h : Fin 16), i = ix3 b s h := ⟨i 0, i 1, i 2, eq_ix3 i⟩
  exact reference_apply X Wq Wk Wv b s h

end Cert.ReferenceHead

end
-- ==== Proof.lean ====
/-
  A single attention head over 64 slabs, on the matrix unit against plain array code: equal over the extended reals.

  The kernel visits one [1024, 64] slab per grid point. It projects the slab by three [64, 16] matrices to queries, keys
  and values, multiplies queries against keys (contracting the 16 projected coordinates, the keys along their own
  second axis), scales by one eighth, takes each row's softmax (subtract the row's maximum, exponentiate, divide by the
  row's sum) and applies the weights to the values; the [1024, 16] result is slab `t` of the output. The reference does
  the same on the whole [64, …] arrays with batched products.

  At the ideal values a change of float format is the identity and a matrix-unit product into zero is the plain sum of
  products, so the two programs differ only in how entries are addressed: the kernel's block (0, s, h) at point `b` is
  the reference's entry (b, s, h). Both are `Attention.output` of the argument arrays:
  - Proof/Attention.lean states that function; Proof/LibRows.lean reads a row maximum, a row sum and the
    column-and-broadcast step at an entry; Proof/KernelProducts.lean the three matrix-unit products;
  - Proof/KernelHead.lean: the body's stored value at (0, s, h) is one head of the block's entries;
  - Proof/KernelArray.lean: point `t` writes slab `t`, the blocks cover the array, so the run ends with the result array
    at `Attention.output` of the arguments;
  - Proof/ReferenceHead.lean: the reference's composed term is `Attention.output` of its arguments.
  The two float words (one eighth, `-∞`) are the same in both programs and are never evaluated; the zero that the
  reference's row sum starts from is absorbed by `0 + x = x`. No law that needs finite numbers is used, so the
  precondition is not opened. The three frames are the generated ones (the reference's is its generated run with the
  result dropped); the idealization rewrote nothing, so `preserves` is `True`.
-/
import proofs.«104742_j73744588472619_1_alg».proof.Defs
import proofs.«104742_j73744588472619_1_alg».proof.Proof.Gen.Kernel
import proofs.«104742_j73744588472619_1_alg».proof.Proof.Gen.Kernel.Frame
import proofs.«104742_j73744588472619_1_alg».proof.Proof.Gen.KernelIdeal
import proofs.«104742_j73744588472619_1_alg».proof.Proof.Gen.KernelIdeal.Frame
import proofs.«104742_j73744588472619_1_alg».proof.Proof.Gen.KernelIdeal.Value
import proofs.«104742_j73744588472619_1_alg».proof.Proof.Gen.ReferenceIdeal
import proofs.«104742_j73744588472619_1_alg».proof.Proof.Gen.ReferenceIdeal.Run
import proofs.«104742_j73744588472619_1_alg».proof.Proof.Gen.ReferenceIdeal.Read
import proofs.«104742_j73744588472619_1_alg».proof.Proof.Gen.Pre_finite_inputs
import proofs.«104742_j73744588472619_1_alg».proof.Proof.KernelArray
import proofs.«104742_j73744588472619_1_alg».proof.Proof.ReferenceHead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `Attention.output` of the argument arrays, which agree. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceHead.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
